-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x64, .f32⟩
  | .hbm, ⟨58, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibBlocks.lean ====
/-
  Index-by-index readings shared by the matrix-product regions and the bias + ELU regions.

  * A plain product of an m×k by a k×n matrix, read at (a, b), is Σ_c A(a, c) · B(c, b): for a kernel's
    product accumulated into a zero block, and for the host's product, whenever the dimension numbers are
    the plain ones (contract the left operand's columns with the right operand's rows).
  * ELU on the extended reals: `eluAt z = z` where `z > 0` and `exp z - 1` elsewhere. The host spells it
    `select (z > 0) z (1 · (exp (select (z > 0) 0 z) - 1))`; the two agree because where `z > 0` fails the
    inner selection is `z` itself and `1 · y = y`.
  * A block of rows with a one-row block added to each row, then ELU, read at (p, q).
-/
import Idealize.ShloMosaic.Lib.StackMember
import Idealize.ShloMosaic.Lib.ValueLayout
import Idealize.ShloMosaic.Lib.IdealHost
import Idealize.ShloMosaic.Lib.Pipeline.Value

noncomputable section

namespace Cert.LibBlocks

open Idealize.ShloMosaic Idealize.ShloMosaic.ValueIdx

/-- The offset of a rank-2 block that starts at the origin. -/
theorem zeroOffset2 : (![0, 0] : Fin 2 → Nat) = fun _ => 0 := funext fun a => by fin_cases a <;> rfl

/-! ## Plain matrix products at an index -/

/-- A kernel's product with plain dimension numbers, accumulated into the zero block: entry (a, b) is
    Σ_c A(a, c) · B(c, b). -/
theorem matmul_zero_plain_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  subst hD
  rw [matmul_zero_eq_dotGeneral]
  exact StackMember.dotGeneral_plain_apply prec A B a b

/-- The host's product with plain dimension numbers: entry (a, b) is Σ_c A(a, c) · B(c, b). -/
theorem dotGeneral_plain_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-! ## ELU on the extended reals -/

/-- `eluAt z = z` where `z > 0`, and `exp z - 1` elsewhere. -/
def eluAt (z : EReal) : EReal := Scalar.select (Ideal.cmp .ogt z 0) z (Ideal.exp z - 1)

/-- The host's spelling: the exponential is taken of `0` where `z > 0` (that branch is then discarded) and of `z`
    elsewhere, and the result is scaled by one. -/
theorem elu_law (z : EReal) :
    Scalar.select (Ideal.cmp .ogt z 0) z (1 * (Ideal.exp (Scalar.select (Ideal.cmp .ogt z 0) 0 z) - 1)) = eluAt z := by
  unfold eluAt
  rcases BitVec.eq_zero_or_eq_one (Ideal.cmp .ogt z 0) with h | h
  · rw [h, select_zero, select_zero, select_zero, one_mul]
  · rw [h, select_one, select_one]

/-- A block of rows `x0` with the one-row block `x1` added to every row, then `select (z > 0) z (exp z - 1)`:
    entry (p, q) is `eluAt (x0 (p, q) + x1 (0, q))`. -/
theorem biasElu_apply {m n : Nat} (x0 : FVec Ideal ⟨2, ![m, n]⟩ .f32) (x1 : FVec Ideal ⟨2, ![1, n]⟩ .f32)
    (hb : (⟨2, ![1, n]⟩ : Shape).Broadcasts ⟨2, ![m, n]⟩) (p : Fin m) (q : Fin n) :
    select (cmpf .ogt (addf x0 (broadcastTo ⟨2, ![m, n]⟩ x1 hb)) (broadcast ⟨2, ![m, n]⟩ (Scalar.ofBits .f32 0x00000000#32)))
        (addf x0 (broadcastTo ⟨2, ![m, n]⟩ x1 hb))
        (subf (exp (addf x0 (broadcastTo ⟨2, ![m, n]⟩ x1 hb))) (broadcast ⟨2, ![m, n]⟩ (Scalar.ofBits .f32 0x3F800000#32)))
        (ix2 p q)
      = eluAt (x0 (ix2 p q) + x1 (ix2 (0 : Fin 1) q)) := by
  have hrow := broadcastTo_1b_ab_apply x1 hb p q
  show Scalar.select (Ideal.cmp .ogt (x0 (ix2 p q) + broadcastTo ⟨2, ![m, n]⟩ x1 hb (ix2 p q)) (Ideal.ofBits .f32 0x00000000#32))
      (x0 (ix2 p q) + broadcastTo ⟨2, ![m, n]⟩ x1 hb (ix2 p q))
      (Ideal.exp (x0 (ix2 p q) + broadcastTo ⟨2, ![m, n]⟩ x1 hb (ix2 p q)) - Ideal.ofBits .f32 0x3F800000#32) = _
  rw [hrow, Ideal.ofBits_zero_f32, Ideal.ofBits_one_f32]
  rfl

end Cert.LibBlocks

end
-- ==== Proof.KBody.lean ====
/-
  What each kernel body stores, read at one entry.

  A body loads a block of 2000 rows of the neighbourhood means (`x0`), the same 2000 rows of the node features
  (`x1`), both weight matrices whole (`x2`, `x4`) and the bias as a single row (`x3`), and stores

      (x0 · x2 + bias row, repeated on every row) + x1 · x4

  (the first layer clamped below at zero). The narrowing of the operands to a shorter float format before the
  products is the identity on the extended reals, and a product accumulated into a zero block is the plain
  sum of products. So the stored entry at row p and column q is

      (Σ_j x0(p, j) · x2(j, q) + x3(0, q)) + Σ_j x1(p, j) · x4(j, q).
-/
import proofs.«181657_j3521873183303_1_alg».proof.Proof.Gen.KernelIdeal.Skeleton
import proofs.«181657_j3521873183303_1_alg».proof.Proof.LibBlocks
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The first layer's stored block at (p, q). -/
theorem pay0_apply (x0 x1 : Vec Ideal S2000x128 .f32) (x2 x4 : Vec Ideal S128x128 .f32) (x3 : Vec Ideal S1x128 .f32)
    (p : Fin 2000) (q : Fin 128) :
    k0_pay1 (F := Ideal) x0 x1 x2 x4 x3 (ix2 p q)
      = max ((∑ j : Fin 128, x0 (ix2 p j) * x2 (ix2 j q) + x3 (ix2 (0 : Fin 1) q))
          + ∑ j : Fin 128, x1 (ix2 p j) * x4 (ix2 j q)) 0 := by
  unfold k0_pay1
  rw [shapeCast_self, shapeCast_self, maximumf_apply, addf_apply, addf_apply,
    LibBlocks.matmul_zero_plain_apply dot_S2000x128_S128x128_S2000x128_1_0_0_1_n_n rfl,
    LibBlocks.matmul_zero_plain_apply dot_S2000x128_S128x128_S2000x128_1_0_0_1_n_n rfl, broadcastTo_1b_ab_apply, broadcast_apply]
  show max _ (Ideal.ofBits .f32 0x00000000#32) = _
  rw [Ideal.ofBits_zero_f32]
  rfl

/-- The second layer's stored block at (p, q). -/
theorem pay1_apply (x0 x1 : Vec Ideal S2000x128 .f32) (x2 x4 : Vec Ideal S128x64 .f32) (x3 : Vec Ideal S1x64 .f32)
    (p : Fin 2000) (q : Fin 64) :
    k1_pay1 (F := Ideal) x0 x1 x2 x4 x3 (ix2 p q)
      = (∑ j : Fin 128, x0 (ix2 p j) * x2 (ix2 j q) + x3 (ix2 (0 : Fin 1) q))
          + ∑ j : Fin 128, x1 (ix2 p j) * x4 (ix2 j q) := by
  unfold k1_pay1
  rw [shapeCast_self, shapeCast_self, shapeCast_self, addf_apply, addf_apply,
    LibBlocks.matmul_zero_plain_apply dot_S2000x128_S128x64_S2000x64_1_0_0_1_n_n rfl,
    LibBlocks.matmul_zero_plain_apply dot_S2000x128_S128x64_S2000x64_1_0_0_1_n_n rfl, broadcastTo_1b_ab_apply]
  rfl

end Cert.KernelIdeal.Body

end
-- ==== Proof.Spec.lean ====
/-
  The dense half of a GraphSAGE layer on the extended reals, as one function of whole arrays.

  For node features `x` (n rows, k columns), the neighbourhood means `mean` (same shape), two weight
  matrices `Wl`, `Wr` (k by p) and a bias `b` (p entries), the layer's output at row r and column c is

      (Σ_j mean(r, j) · Wl(j, c) + b(c)) + Σ_j x(r, j) · Wr(j, c),

  in exactly this grouping; the first layer clamps the result below at zero. Every output row depends on
  the same row of `mean` and of `x` only, so a computation that handles the rows block by block and one that
  handles them all at once describe the same function.

  The neighbourhood mean divides a sum of neighbour rows by the clamped in-degree `max(deg, 1)`. One
  program multiplies by the reciprocal `1 / max(deg, 1)`, the other divides by `max(deg, 1)`. On the
  extended reals a quotient by a divisor that is not zero is the product with the inverse, and
  `max(deg, 1) ≥ 1` is never zero, so the two agree at every entry, whatever the entry of the sum is.
-/
import Idealize.ShloMosaic.Lib.ValueIdx
import Idealize.ShloMosaic.Lib.IdealHost
import Idealize.ShloMosaic.PureOps.Ideal

noncomputable section

namespace Cert.Sage

open Idealize.ShloMosaic Idealize.ShloMosaic.ValueIdx
open scoped BigOperators

/-- `lin_l(mean) + b + lin_r(x)` at row `i 0` and column `i 1`. -/
def dense {n k p : Nat} (mean x : (⟨2, ![n, k]⟩ : Shape).Idx → EReal) (Wl Wr : (⟨2, ![k, p]⟩ : Shape).Idx → EReal)
    (b : (⟨1, ![p]⟩ : Shape).Idx → EReal) : (⟨2, ![n, p]⟩ : Shape).Idx → EReal :=
  fun i => (∑ j : Fin k, mean (ix2 (i 0) j) * Wl (ix2 j (i 1)) + b (ix1 (i 1)))
    + ∑ j : Fin k, x (ix2 (i 0) j) * Wr (ix2 j (i 1))

/-- The same, clamped below at zero. -/
def denseRelu {n k p : Nat} (mean x : (⟨2, ![n, k]⟩ : Shape).Idx → EReal) (Wl Wr : (⟨2, ![k, p]⟩ : Shape).Idx → EReal)
    (b : (⟨1, ![p]⟩ : Shape).Idx → EReal) : (⟨2, ![n, p]⟩ : Shape).Idx → EReal :=
  fun i => max (dense mean x Wl Wr b i) 0

theorem dense_ix2 {n k p : Nat} (mean x : (⟨2, ![n, k]⟩ : Shape).Idx → EReal) (Wl Wr : (⟨2, ![k, p]⟩ : Shape).Idx → EReal)
    (b : (⟨1, ![p]⟩ : Shape).Idx → EReal) (r : Fin n) (c : Fin p) :
    dense mean x Wl Wr b (ix2 r c)
      = (∑ j : Fin k, mean (ix2 r j) * Wl (ix2 j c) + b (ix1 c)) + ∑ j : Fin k, x (ix2 r j) * Wr (ix2 j c) := rfl

theorem denseRelu_ix2 {n k p : Nat} (mean x : (⟨2, ![n, k]⟩ : Shape).Idx → EReal) (Wl Wr : (⟨2, ![k, p]⟩ : Shape).Idx → EReal)
    (b : (⟨1, ![p]⟩ : Shape).Idx → EReal) (r : Fin n) (c : Fin p) :
    denseRelu mean x Wl Wr b (ix2 r c)
      = max ((∑ j : Fin k, mean (ix2 r j) * Wl (ix2 j c) + b (ix1 c)) + ∑ j : Fin k, x (ix2 r j) * Wr (ix2 j c)) 0 := rfl

/-- A clamped degree is never zero. -/
theorem max_one_ne_zero (d : EReal) : max d 1 ≠ 0 :=
  ne_of_gt (lt_of_lt_of_le zero_lt_one (le_max_right d 1))

end Cert.Sage

end
-- ==== Proof.KRegion.lean ====
/-
  Each dense region's output array as one function of the arrays the region is entered with.

  A region runs its body at 25 grid points. At point t the body sees rows 2000·t … 2000·t + 1999 of the
  neighbourhood means and of the node features, the two weight matrices and the bias row whole, and writes
  back rows 2000·t … 2000·t + 1999 of the output. An output row depends on the same row of the means and of
  the features only, so what point t writes back is block t of ONE whole-array function, the dense layer
  (`Sage.dense`, clamped at zero in the first region). The 25 blocks tile the 50000 rows, so after the region
  the output array is that function of the entry arrays.
-/
import proofs.«181657_j3521873183303_1_alg».proof.Proof.Gen.KernelIdeal.Frame
import proofs.«181657_j3521873183303_1_alg».proof.Proof.KBody
import proofs.«181657_j3521873183303_1_alg».proof.Proof.Spec
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the row-blocked windows are at block `t`, the weights and the bias
    at their only block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One stored entry is the layer's value at the entry's place in the whole arrays: the blocks `x0`, `x1` are
    rows `o …` of `A0`, `A1`, the weights and the bias are whole, and the entry (row, column) of the block sits at
    (o + row, column). -/
theorem block0_value (A0 A1 : S50000x128.Idx → EReal) (A2 A4 : S128x128.Idx → EReal) (A3 : S1x128.Idx → EReal)
    (x0 x1 : Vec Ideal S2000x128 .f32) (x2 x4 : Vec Ideal S128x128 .f32) (x3 : Vec Ideal S1x128 .f32) (o : Nat)
    (h0 : ∀ (y : S2000x128.Idx) (i : S50000x128.Idx), (i 0).val = o + (y 0).val → (i 1).val = (y 1).val → x0 y = A0 i)
    (h1 : ∀ (y : S2000x128.Idx) (i : S50000x128.Idx), (i 0).val = o + (y 0).val → (i 1).val = (y 1).val → x1 y = A1 i)
    (h2 : x2 = A2) (h3 : x3 = A3) (h4 : x4 = A4)
    (j : S2000x128.Idx) (i : S50000x128.Idx) (hi0 : (i 0).val = o + (j 0).val) (hi1 : (i 1).val = (j 1).val) :
    k0_pay1 (F := Ideal) x0 x1 x2 x4 x3 j
      = Sage.denseRelu (n := 50000) (k := 128) (p := 128) A0 A1 A2 A4 (fun d => A3 (ix2 (0 : Fin 1) (d 0))) i := by
  obtain ⟨p, q, rfl⟩ : ∃ (p : Fin 2000) (q : Fin 128), j = ix2 p q := ⟨j 0, j 1, eq_ix2 j⟩
  subst h2 h3 h4
  rw [Body.pay0_apply]
  have e0 : ∀ k : Fin 128, x0 (ix2 p k) = A0 (ix2 (i 0) k) := fun k => h0 (ix2 p k) (ix2 (i 0) k) hi0 rfl
  have e1 : ∀ k : Fin 128, x1 (ix2 p k) = A1 (ix2 (i 0) k) := fun k => h1 (ix2 p k) (ix2 (i 0) k) hi0 rfl
  have hq : q = i 1 := Fin.ext hi1.symm
  subst hq
  simp only [e0, e1]
  rfl

/-- What point `t` writes back is block `t` of the layer's value of the arrays the region is entered with. -/
theorem flushed0 (c : Dev nD) (t : Fin cfg0.N) :
    (dat0 V c).flushed 5 t = ((cfg0.win 5).blk t).view.read (Elt Ideal)
      (Sage.denseRelu (n := 50000) (k := 128) (p := 128) (V c main_v24) (V c main_arg0) (V c main_arg2) (V c main_arg4)
        (fun d => V c main_v25 (ix2 (0 : Fin 1) (d 0)))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨a00, a01, a10, a11, a20, a21, a30, a31, a40, a41, a50, a51⟩ := idx0 t
  funext j
  show k0_pay1 (F := Ideal) (iblk0 V c 0 t) (iblk0 V c 1 t) (iblk0 V c 2 t) (iblk0 V c 4 t) (iblk0 V c 3 t) j
    = Sage.denseRelu (n := 50000) (k := 128) (p := 128) (V c main_v24) (V c main_arg0) (V c main_arg2) (V c main_arg4)
        (fun d => V c main_v25 (ix2 (0 : Fin 1) (d 0))) (((cfg0.win 5).blk t).view.emb j)
  refine block0_value (V c main_v24) (V c main_arg0) (V c main_arg2) (V c main_arg4) (V c main_v25)
    (iblk0 V c 0 t) (iblk0 V c 1 t) (iblk0 V c 2 t) (iblk0 V c 4 t) (iblk0 V c 3 t) (t.val * 2000)
    ?_ ?_ ?_ ?_ ?_ j (((cfg0.win 5).blk t).view.emb j) ?_ ?_
  · intro y i e0 e1
    show V c main_v24 (((cfg0.win 0).blk t).view.emb y) = V c main_v24 i
    refine congrArg _ (funext fun a => Fin.ext ?_)
    match a with
    | ⟨0, _⟩ => show win0_0.index t (0 : Fin 2) * 2000 + 1 * (y 0).val = (i 0).val; omega
    | ⟨1, _⟩ => show win0_0.index t (1 : Fin 2) * 128 + 1 * (y 1).val = (i 1).val; omega
  · intro y i e0 e1
    show V c main_arg0 (((cfg0.win 1).blk t).view.emb y) = V c main_arg0 i
    refine congrArg _ (funext fun a => Fin.ext ?_)
    match a with
    | ⟨0, _⟩ => show win0_1.index t (0 : Fin 2) * 2000 + 1 * (y 0).val = (i 0).val; omega
    | ⟨1, _⟩ => show win0_1.index t (1 : Fin 2) * 128 + 1 * (y 1).val = (i 1).val; omega
  · funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · show win0_5.index t (0 : Fin 2) * 2000 + 1 * (j 0).val = t.val * 2000 + (j 0).val; omega
  · show win0_5.index t (1 : Fin 2) * 128 + 1 * (j 1).val = (j 1).val; omega

/-- An index of the output array is in point `t`'s block iff each coordinate is in the block's range. -/
theorem mem_blk0 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v26).slice (win0_5.rect t)).set ↔ _
  rw [View.set_slice_whole, Rect.mem_set_unit]
  exact Iff.rfl

/-- The 25 blocks of 2000 rows tile the 50000 rows: row `r` is in block `r / 2000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  obtain ⟨-, -, -, -, -, -, -, -, -, -, a50, a51⟩ := idx0 ⟨(i 0).val / 2000, by rw [hN]; omega⟩
  rw [mem_blk0]
  intro a
  match a with
  | ⟨0, _⟩ =>
    show win0_5.index _ (0 : Fin 2) * 2000 ≤ (i 0).val ∧ (i 0).val < win0_5.index _ (0 : Fin 2) * 2000 + 2000
    rw [a50]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [a51]; omega

/-- The region's output array after the region: the layer's value of the arrays the region is entered with. -/
theorem final0 (c : Dev nD) :
    (dat0 V c).arrAt 5 cfg0.N
      = Sage.denseRelu (n := 50000) (k := 128) (p := 128) (V c main_v24) (V c main_arg0) (V c main_arg2) (V c main_arg4)
        (fun d => V c main_v25 (ix2 (0 : Fin 1) (d 0))) :=
  (dat0 V c).arrAt_eq_of_cover 5 _ (fun t _ => flushed0 V c t) cover0

/-! ## Region 1 -/

/-- The printed index maps over the grid: the row-blocked windows are at block `t`, the weights and the bias
    at their only block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One stored entry is the layer's value at the entry's place in the whole arrays: the blocks `x0`, `x1` are
    rows `o …` of `A0`, `A1`, the weights and the bias are whole, and the entry (row, column) of the block sits at
    (o + row, column). -/
theorem block1_value (A0 A1 : S50000x128.Idx → EReal) (A2 A4 : S128x64.Idx → EReal) (A3 : S1x64.Idx → EReal)
    (x0 x1 : Vec Ideal S2000x128 .f32) (x2 x4 : Vec Ideal S128x64 .f32) (x3 : Vec Ideal S1x64 .f32) (o : Nat)
    (h0 : ∀ (y : S2000x128.Idx) (i : S50000x128.Idx), (i 0).val = o + (y 0).val → (i 1).val = (y 1).val → x0 y = A0 i)
    (h1 : ∀ (y : S2000x128.Idx) (i : S50000x128.Idx), (i 0).val = o + (y 0).val → (i 1).val = (y 1).val → x1 y = A1 i)
    (h2 : x2 = A2) (h3 : x3 = A3) (h4 : x4 = A4)
    (j : S2000x64.Idx) (i : S50000x64.Idx) (hi0 : (i 0).val = o + (j 0).val) (hi1 : (i 1).val = (j 1).val) :
    k1_pay1 (F := Ideal) x0 x1 x2 x4 x3 j
      = Sage.dense (n := 50000) (k := 128) (p := 64) A0 A1 A2 A4 (fun d => A3 (ix2 (0 : Fin 1) (d 0))) i := by
  obtain ⟨p, q, rfl⟩ : ∃ (p : Fin 2000) (q : Fin 64), j = ix2 p q := ⟨j 0, j 1, eq_ix2 j⟩
  subst h2 h3 h4
  rw [Body.pay1_apply]
  have e0 : ∀ k : Fin 128, x0 (ix2 p k) = A0 (ix2 (i 0) k) := fun k => h0 (ix2 p k) (ix2 (i 0) k) hi0 rfl
  have e1 : ∀ k : Fin 128, x1 (ix2 p k) = A1 (ix2 (i 0) k) := fun k => h1 (ix2 p k) (ix2 (i 0) k) hi0 rfl
  have hq : q = i 1 := Fin.ext hi1.symm
  subst hq
  simp only [e0, e1]
  rfl

/-- What point `t` writes back is block `t` of the layer's value of the arrays the region is entered with. -/
theorem flushed1 (c : Dev nD) (t : Fin cfg1.N) :
    (dat1 V c).flushed 5 t = ((cfg1.win 5).blk t).view.read (Elt Ideal)
      (Sage.dense (n := 50000) (k := 128) (p := 64) (V c main_v38) (V c main_v26) (V c main_arg5) (V c main_arg7)
        (fun d => V c main_v39 (ix2 (0 : Fin 1) (d 0)))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x64) hz, View.ld_unit_zero (S := S1x64) hz]
  obtain ⟨a00, a01, a10, a11, a20, a21, a30, a31, a40, a41, a50, a51⟩ := idx1 t
  funext j
  show k1_pay1 (F := Ideal) (iblk1 V c 0 t) (iblk1 V c 1 t) (iblk1 V c 2 t) (iblk1 V c 4 t) (iblk1 V c 3 t) j
    = Sage.dense (n := 50000) (k := 128) (p := 64) (V c main_v38) (V c main_v26) (V c main_arg5) (V c main_arg7)
        (fun d => V c main_v39 (ix2 (0 : Fin 1) (d 0))) (((cfg1.win 5).blk t).view.emb j)
  refine block1_value (V c main_v38) (V c main_v26) (V c main_arg5) (V c main_arg7) (V c main_v39)
    (iblk1 V c 0 t) (iblk1 V c 1 t) (iblk1 V c 2 t) (iblk1 V c 4 t) (iblk1 V c 3 t) (t.val * 2000)
    ?_ ?_ ?_ ?_ ?_ j (((cfg1.win 5).blk t).view.emb j) ?_ ?_
  · intro y i e0 e1
    show V c main_v38 (((cfg1.win 0).blk t).view.emb y) = V c main_v38 i
    refine congrArg _ (funext fun a => Fin.ext ?_)
    match a with
    | ⟨0, _⟩ => show win1_0.index t (0 : Fin 2) * 2000 + 1 * (y 0).val = (i 0).val; omega
    | ⟨1, _⟩ => show win1_0.index t (1 : Fin 2) * 128 + 1 * (y 1).val = (i 1).val; omega
  · intro y i e0 e1
    show V c main_v26 (((cfg1.win 1).blk t).view.emb y) = V c main_v26 i
    refine congrArg _ (funext fun a => Fin.ext ?_)
    match a with
    | ⟨0, _⟩ => show win1_1.index t (0 : Fin 2) * 2000 + 1 * (y 0).val = (i 0).val; omega
    | ⟨1, _⟩ => show win1_1.index t (1 : Fin 2) * 128 + 1 * (y 1).val = (i 1).val; omega
  · funext y
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  · funext y
    show V c main_v39 (((cfg1.win 3).blk t).view.emb y) = V c main_v39 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 64 + 1 * (y 1).val = (y 1).val; omega
  · show win1_5.index t (0 : Fin 2) * 2000 + 1 * (j 0).val = t.val * 2000 + (j 0).val; omega
  · show win1_5.index t (1 : Fin 2) * 64 + 1 * (j 1).val = (j 1).val; omega

/-- An index of the output array is in point `t`'s block iff each coordinate is in the block's range. -/
theorem mem_blk1 (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v40).slice (win1_5.rect t)).set ↔ _
  rw [View.set_slice_whole, Rect.mem_set_unit]
  exact Iff.rfl

/-- The 25 blocks of 2000 rows tile the 50000 rows: row `r` is in block `r / 2000`. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_5 _, ?_⟩
  obtain ⟨-, -, -, -, -, -, -, -, -, -, a50, a51⟩ := idx1 ⟨(i 0).val / 2000, by rw [hN]; omega⟩
  rw [mem_blk1]
  intro a
  match a with
  | ⟨0, _⟩ =>
    show win1_5.index _ (0 : Fin 2) * 2000 ≤ (i 0).val ∧ (i 0).val < win1_5.index _ (0 : Fin 2) * 2000 + 2000
    rw [a50]; show (i 0).val / 2000 * 2000 ≤ (i 0).val ∧ (i 0).val < (i 0).val / 2000 * 2000 + 2000; omega
  | ⟨1, _⟩ =>
    show win1_5.index _ (1 : Fin 2) * 64 ≤ (i 1).val ∧ (i 1).val < win1_5.index _ (1 : Fin 2) * 64 + 64
    rw [a51]; omega

/-- The region's output array after the region: the layer's value of the arrays the region is entered with. -/
theorem final1 (c : Dev nD) :
    (dat1 V c).arrAt 5 cfg1.N
      = Sage.dense (n := 50000) (k := 128) (p := 64) (V c main_v38) (V c main_v26) (V c main_arg5) (V c main_arg7)
        (fun d => V c main_v39 (ix2 (0 : Fin 1) (d 0))) :=
  (dat1 V c).arrAt_eq_of_cover 5 _ (fun t _ => flushed1 V c t) cover1

end Cert.KernelIdeal.Region

end
-- ==== Proof.KRun.lean ====
/-
  The kernel program's run with its result named.

  The program is four segments in a row: host operations, the first layer's dense region, host operations
  again, the second layer's dense region. Every weakly fair execution goes through them in this order and
  ends with every buffer that outlives a region at the contents the last boundary has: each region's arrays at
  what its write-backs leave, each host operation's result at the operation of its operands, everything else
  as it was. The result buffer is the second region's output array, so it ends at that boundary's contents
  there; the argument arrays are written by nothing and end as launched.
-/
import proofs.«181657_j3521873183303_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.Glue.lean ====
/-
  Mean aggregation over the edges, as both programs spell it.

  The edge list is a 2 × 800000 integer array: row 0 holds each edge's source node, row 1 its destination.
  A source index below zero is counted from the end (50000 is added to it) before rows are gathered.
  For node features `h`:

  * `neighbourSum h e` adds, into row d of a zero array, the row `h[src]` of every edge (src → d);
  * `degree e` adds a one into entry d for every such edge, and `clampedDegree e = max(degree e, 1)`;
  * `spread v` repeats entry r of a length-50000 vector along row r of a 50000 × 128 array.

  The mean of the neighbours is spelt `neighbourSum · spread(1 / clampedDegree)` by one program and
  `neighbourSum / spread(clampedDegree)` by the other. The clamped degree is at least one, so it is never zero,
  and on the extended reals a quotient by a divisor that is not zero is the product with its inverse: the two
  spellings are the same array, whatever the gathered sums are (even infinite ones).
-/
import proofs.«181657_j3521873183303_1_alg».proof.Proof.Gen.KernelIdeal
import proofs.«181657_j3521873183303_1_alg».proof.Proof.Spec
import Idealize.ShloMosaic.Lib.IdealHost

noncomputable section

namespace Cert.KernelIdeal.Glue

open Cert.KernelIdeal Cert.KernelIdeal.Gen Idealize.ShloMosaic Idealize.ShloMosaic.ValueIdx

abbrev Edges := IVec S2x800000 32
abbrev Feat := FVec Ideal S50000x128 .f32
abbrev PerNode := FVec Ideal S50000 .f32

/-- Each edge's destination node. -/
def dstRow (e : Edges) : IVec S800000 32 :=
  shapeCast _ (extractStridedSlice S1x800000 ![1, 0] e slices_S2x800000_S1x800000_1_0) shapeCasts_S1x800000_S800000

/-- Each edge's destination node, as the one-column index array a scatter reads. -/
def dstCol (e : Edges) : IVec S800000x1 32 :=
  broadcastInDim S800000x1 ![0] bcast_S800000_S800000x1_0 (dstRow e)

/-- Each edge's source node as given. -/
def srcRow (e : Edges) : IVec S800000 32 :=
  shapeCast _ (extractStridedSlice S1x800000 ![0, 0] e slices_S2x800000_S1x800000_0_0) shapeCasts_S1x800000_S800000

/-- Each edge's source node with an index below zero counted from the end, as the one-column index array a
    gather reads. -/
def srcCol (e : Edges) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32)))
      (srcRow e))

/-- Row d: the sum of `h[src]` over the edges (src → d). -/
def neighbourSum (h : Feat) (e : Edges) : Feat :=
  Host.scatterAdd (F := Ideal) scatter_S50000x128_S800000x1_S800000x128_1_0_0_1
    (broadcastInDim S50000x128 ![] bcast_S_S50000x128 (constant (F := Ideal) S_ .f32 0x00000000#32))
    (dstCol e)
    (Host.gather gather_S50000x128_S800000x1_S800000x128_1_0_n_n_0_1_1128 h (srcCol e))

/-- A one for every node. -/
def ones : PerNode := broadcastInDim S50000 ![] bcast_S_S50000 (constant (F := Ideal) S_ .f32 0x3F800000#32)

/-- Entry d: the number of edges into d, as a sum of ones. -/
def degree (e : Edges) : PerNode :=
  Host.scatterAdd (F := Ideal) scatter_S50000_S800000x1_S800000_n_0_0_1
    (broadcastInDim S50000 ![] bcast_S_S50000 (constant (F := Ideal) S_ .f32 0x00000000#32))
    (dstCol e)
    (broadcastInDim S800000 ![] bcast_S_S800000 (constant (F := Ideal) S_ .f32 0x3F800000#32))

/-- `max(degree, 1)`. -/
def clampedDegree (e : Edges) : PerNode := maximumf (degree e) ones

/-- Entry r of a per-node vector repeated along row r. -/
def spread (v : PerNode) : Feat :=
  broadcastInDim S50000x128 ![0, 1] bcast_S50000x1_S50000x128_0_1 (broadcastInDim S50000x1 ![0] bcast_S50000_S50000x1_0 v)

/-- The reciprocal of the clamped degree, as a one-column array. -/
def recipCol (e : Edges) : FVec Ideal S50000x1 .f32 :=
  broadcastInDim S50000x1 ![0] bcast_S50000_S50000x1_0 (Host.divf (F := Ideal) ones (clampedDegree e))

/-- The neighbours' mean as a product with the reciprocal of the clamped degree. -/
def meanByRecip (h : Feat) (e : Edges) : Feat :=
  mulf (neighbourSum h e) (spread (Host.divf (F := Ideal) ones (clampedDegree e)))

/-- The neighbours' mean as a quotient by the clamped degree. -/
def meanByQuot (h : Feat) (e : Edges) : Feat :=
  Host.divf (F := Ideal) (neighbourSum h e) (spread (clampedDegree e))

theorem ones_apply (k : S50000.Idx) : ones k = 1 := by
  unfold ones
  rw [broadcastInDim_scalar_apply, constant_apply, Ideal.ofBits_one_f32]

/-- Entry by entry: `S · (1 / max(d, 1)) = S / max(d, 1)`, the degree read at the entry's row. -/
theorem recip_spread (S : Feat) (d : PerNode) :
    mulf S (spread (Host.divf (F := Ideal) ones (maximumf d ones))) = Host.divf (F := Ideal) S (spread (maximumf d ones)) := by
  funext j
  rw [mulf_apply, hostDivf_apply]
  unfold spread broadcastInDim
  dsimp only
  rw [hostDivf_apply, maximumf_apply, ones_apply]
  exact Ideal.mul_one_div (Sage.max_one_ne_zero _)

/-- The two spellings of the mean are one array. -/
theorem mean_eq (h : Feat) (e : Edges) : meanByRecip h e = meanByQuot h e := by
  unfold meanByRecip meanByQuot clampedDegree
  exact recip_spread _ _

/-! ## The two layers, over either spelling of the mean -/

/-- The first layer: the dense half applied to the neighbours' mean and the features, clamped at zero. -/
def layer1 (mean : Feat → Edges → Feat) (x : Feat) (e : Edges) (Wl Wr : FVec Ideal S128x128 .f32) (b : FVec Ideal S128 .f32) : Feat :=
  Sage.denseRelu (n := 50000) (k := 128) (p := 128) (mean x e) x Wl Wr b

/-- The second layer: the dense half applied to the neighbours' mean of the hidden features and the hidden features. -/
def layer2 (mean : Feat → Edges → Feat) (h : Feat) (e : Edges) (Wl Wr : FVec Ideal S128x64 .f32) (b : FVec Ideal S64 .f32) :
    FVec Ideal S50000x64 .f32 :=
  Sage.dense (n := 50000) (k := 128) (p := 64) (mean h e) h Wl Wr b

/-- Both layers in a row. -/
def twoLayers (mean : Feat → Edges → Feat) (x : Feat) (e : Edges) (Wl1 : FVec Ideal S128x128 .f32) (b1 : FVec Ideal S128 .f32)
    (Wr1 : FVec Ideal S128x128 .f32) (Wl2 : FVec Ideal S128x64 .f32) (b2 : FVec Ideal S64 .f32) (Wr2 : FVec Ideal S128x64 .f32) :
    FVec Ideal S50000x64 .f32 :=
  layer2 mean (layer1 mean x e Wl1 Wr1 b1) e Wl2 Wr2 b2

/-- The two spellings of the mean give the same two layers. -/
theorem twoLayers_eq (x : Feat) (e : Edges) (Wl1 : FVec Ideal S128x128 .f32) (b1 : FVec Ideal S128 .f32)
    (Wr1 : FVec Ideal S128x128 .f32) (Wl2 : FVec Ideal S128x64 .f32) (b2 : FVec Ideal S64 .f32) (Wr2 : FVec Ideal S128x64 .f32) :
    twoLayers meanByRecip x e Wl1 b1 Wr1 Wl2 b2 Wr2 = twoLayers meanByQuot x e Wl1 b1 Wr1 Wl2 b2 Wr2 := by
  have hm : meanByRecip = meanByQuot := funext fun h => funext fun e => mean_eq h e
  rw [hm]

end Cert.KernelIdeal.Glue

end
-- ==== Proof.KValue.lean ====
/-
  The kernel program's result as one function of its arguments.

  Reading the run backwards from the result buffer: it is the second dense region's output array, which is
  the dense layer of the arrays that region is entered with; those are the first region's output (the hidden
  features), the second stretch of host operations applied to it (gather the hidden rows along the edges, add
  them into their destinations, multiply by the reciprocal of the clamped degree), and the second layer's
  weights and bias. The first region's output is in turn the dense layer, clamped at zero, of the first
  stretch's neighbourhood mean of the node features, the features themselves and the first layer's weights
  and bias. The edge columns and the reciprocal degrees are computed once, by the first stretch, and read
  again by the second. The bias reaches each region as a one-row array; entry (0, c) of it is entry c of the
  bias vector.
-/
import proofs.«181657_j3521873183303_1_alg».proof.Proof.KRegion
import proofs.«181657_j3521873183303_1_alg».proof.Proof.KRun
import proofs.«181657_j3521873183303_1_alg».proof.Proof.Glue
import Idealize.ShloMosaic.Lib.StableHlo.Run
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## After the first stretch of host operations -/

theorem V1_v24 (c : Dev nD) : V1 m ρ c main_v24
    = Glue.meanByRecip (m ((c : Thread nD τ).loc main_arg0)) (m ((c : Thread nD τ).loc main_arg1)) := by
  show StableHlo.after hostOps0 (W0 m ρ c) (Proc.devRef .tc main_v24) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_arg2 (c : Dev nD) : V1 m ρ c main_arg2 = m ((c : Thread nD τ).loc main_arg2) := by
  show StableHlo.after hostOps0 (W0 m ρ c) (Proc.devRef .tc main_arg2) = _
  after_results_simp <;> rfl

theorem V1_arg4 (c : Dev nD) : V1 m ρ c main_arg4 = m ((c : Thread nD τ).loc main_arg4) := by
  show StableHlo.after hostOps0 (W0 m ρ c) (Proc.devRef .tc main_arg4) = _
  after_results_simp <;> rfl

theorem V1_v25 (c : Dev nD) : V1 m ρ c main_v25 = shapeCast S1x128 (m ((c : Thread nD τ).loc main_arg3)) shapeCasts_S128_S1x128 := by
  show StableHlo.after hostOps0 (W0 m ρ c) (Proc.devRef .tc main_v25) = _
  after_results_simp <;> rfl

/-- The first layer's bias row read back as the bias vector. -/
theorem bias1 (c : Dev nD) :
    (fun d : S128.Idx => V1 m ρ c main_v25 (ix2 (0 : Fin 1) (d 0))) = m ((c : Thread nD τ).loc main_arg3) := by
  funext d
  rw [V1_v25]
  exact (shapeCast_a_1a_apply _ shapeCasts_S128_S1x128 0 (d 0)).trans (congrArg _ (eq_ix1 d).symm)

/-- The hidden features: the first region's output array. -/
theorem hidden_eq (c : Dev nD) : W2 m ρ c (Proc.devRef .tc main_v26)
    = Glue.layer1 Glue.meanByRecip (m ((c : Thread nD τ).loc main_arg0)) (m ((c : Thread nD τ).loc main_arg1))
        (m ((c : Thread nD τ).loc main_arg2)) (m ((c : Thread nD τ).loc main_arg4)) (m ((c : Thread nD τ).loc main_arg3)) := by
  refine (W2_arr m ρ c 5).trans ?_
  rw [Region.final0 (V1 m ρ) c, V1_v24, V1_arg0, V1_arg2, V1_arg4, bias1]
  rfl

/-! ## What the second stretch reads of the first: buffers no region writes -/

theorem W2_v1 (c : Dev nD) : W2 m ρ c (Proc.devRef .tc main_v1) = Glue.srcRow (m ((c : Thread nD τ).loc main_arg1)) := by
  refine (W2_of_ne m ρ c main_v1 (by decide)).trans ?_
  show StableHlo.after hostOps0 (W0 m ρ c) (Proc.devRef .tc main_v1) = _
  after_results_simp <;> rfl

theorem W2_v3 (c : Dev nD) : W2 m ρ c (Proc.devRef .tc main_v3) = Glue.dstRow (m ((c : Thread nD τ).loc main_arg1)) := by
  refine (W2_of_ne m ρ c main_v3 (by decide)).trans ?_
  show StableHlo.after hostOps0 (W0 m ρ c) (Proc.devRef .tc main_v3) = _
  after_results_simp <;> rfl

theorem W2_v12 (c : Dev nD) : W2 m ρ c (Proc.devRef .tc main_v12) = Glue.recipCol (m ((c : Thread nD τ).loc main_arg1)) := by
  refine (W2_of_ne m ρ c main_v12 (by decide)).trans ?_
  show StableHlo.after hostOps0 (W0 m ρ c) (Proc.devRef .tc main_v12) = _
  after_results_simp <;> rfl

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp <;> rfl

theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl

theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl

/-! ## After the second stretch of host operations -/

theorem V3_v38 (c : Dev nD) : V3 m ρ c main_v38
    = Glue.meanByRecip (W2 m ρ c (Proc.devRef .tc main_v26)) (m ((c : Thread nD τ).loc main_arg1)) := by
  show StableHlo.after hostOps1 (W2 m ρ c) (Proc.devRef .tc main_v38) = _
  after_results_simp
  rw [W2_v1, W2_v3, W2_v12]
  rfl

theorem V3_v26 (c : Dev nD) : V3 m ρ c main_v26 = W2 m ρ c (Proc.devRef .tc main_v26) := by
  show StableHlo.after hostOps1 (W2 m ρ c) (Proc.devRef .tc main_v26) = _
  after_results_simp <;> rfl

theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  after_results_simp <;> rfl

theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  after_results_simp <;> rfl

theorem V3_v39 (c : Dev nD) : V3 m ρ c main_v39 = shapeCast S1x64 (m ((c : Thread nD τ).loc main_arg6)) shapeCasts_S64_S1x64 := by
  refine Eq.trans ?_ (congrArg (fun x => shapeCast S1x64 x shapeCasts_S64_S1x64) (W2_arg6 m ρ c))
  show StableHlo.after hostOps1 (W2 m ρ c) (Proc.devRef .tc main_v39) = _
  after_results_simp <;> rfl

/-- The second layer's bias row read back as the bias vector. -/
theorem bias2 (c : Dev nD) :
    (fun d : S64.Idx => V3 m ρ c main_v39 (ix2 (0 : Fin 1) (d 0))) = m ((c : Thread nD τ).loc main_arg6) := by
  funext d
  rw [V3_v39]
  exact (shapeCast_a_1a_apply _ shapeCasts_S64_S1x64 0 (d 0)).trans (congrArg _ (eq_ix1 d).symm)

/-! ## The result -/

/-- The result buffer's contents at the last boundary: both layers, the mean taken with the reciprocal. -/
theorem result_eq (c : Dev nD) : W4 m ρ c (Proc.devRef .tc main_v40)
    = Glue.twoLayers Glue.meanByRecip (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ?_
  rw [Region.final1 (V3 m ρ) c, V3_v38, V3_v26, V3_arg5, V3_arg7, bias2, hidden_eq]
  rfl

/-- The kernel program's run: the result buffer ends at the two layers of the arguments, the arguments unchanged. -/
theorem run : θ_run defs (onTc (τ := τ) (main (F := Ideal))) ⟨m, fun _ => 0, ρ⟩ (fun r => ∀ c : Dev nD,
      r.2.mem ((c.tc : Thread nD τ).loc main_v40)
        = Glue.twoLayers Glue.meanByRecip (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run m ρ)

end Cert.KernelIdeal.KValue

end
-- ==== Proof.RValue.lean ====
/-
  The reference program's result as the same two layers.

  The reference computes, for each layer, the neighbours' sum divided by the clamped degree, then
  `mean · Wl + b + x · Wr` with whole-array products, the bias repeated on every row, and (after the first
  layer) a maximum with zero. Read at row r and column c a whole-array product is the sum over j of
  left(r, j) · right(j, c), the repeated bias is b(c), and the zero array is zero: exactly the dense layer of
  the specification. Its edge columns, sums and degrees are the same operations of the same arguments as
  the other program's, so they are the same terms.
-/
import proofs.«181657_j3521873183303_1_alg».proof.Proof.Gen.ReferenceIdeal.Read
import proofs.«181657_j3521873183303_1_alg».proof.Proof.Glue
import proofs.«181657_j3521873183303_1_alg».proof.Proof.LibBlocks
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-- The first layer's mean: the neighbours' sum of the features over the clamped degree. -/
theorem mean1_eq (x0 : FVec Ideal S50000x128 .f32) (x1 : IVec S2x800000 32) :
    val_main_v22 (F := Ideal) x0 x1 = Cert.KernelIdeal.Glue.meanByQuot x0 x1 := rfl

/-- The second layer's mean: the same of the hidden features. -/
theorem mean2_eq (x0 : FVec Ideal S50000x128 .f32) (x1 : IVec S2x800000 32) (x2 : FVec Ideal S128x128 .f32)
    (x3 : FVec Ideal S128 .f32) (x4 : FVec Ideal S128x128 .f32) :
    val_main_v48 (F := Ideal) x0 x1 x2 x3 x4
      = Cert.KernelIdeal.Glue.meanByQuot (val_main_v29 (F := Ideal) x0 x1 x2 x3 x4) x1 := rfl

/-- A bias vector repeated on every row, read at (r, q). -/
theorem bias128_apply (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  rw [broadcastInDim_apply _ bcast_S1x128_S50000x128_0_1 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ bcast_S128_S1x128_1 b (ix2 (0 : Fin 1) q) (ix1 q) (fun a => match a with
      | ⟨0, _⟩ => by show q.val = if (128 : Nat) = 1 then 0 else q.val; rw [if_neg (by decide)])]

theorem bias64_apply (b : FVec Ideal S64 .f32) (r : Fin 50000) (q : Fin 64) :
    broadcastInDim S50000x64 ![0, 1] bcast_S1x64_S50000x64_0_1 (broadcastInDim S1x64 ![1] bcast_S64_S1x64_1 b) (ix2 r q)
      = b (ix1 q) := by
  rw [broadcastInDim_apply _ bcast_S1x64_S50000x64_0_1 _ (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)]),
    broadcastInDim_apply _ bcast_S64_S1x64_1 b (ix2 (0 : Fin 1) q) (ix1 q) (fun a => match a with
      | ⟨0, _⟩ => by show q.val = if (64 : Nat) = 1 then 0 else q.val; rw [if_neg (by decide)])]

/-- The hidden features are the first layer of the specification. -/
theorem layer1_eq (x0 : FVec Ideal S50000x128 .f32) (x1 : IVec S2x800000 32) (x2 : FVec Ideal S128x128 .f32)
    (x3 : FVec Ideal S128 .f32) (x4 : FVec Ideal S128x128 .f32) :
    val_main_v29 (F := Ideal) x0 x1 x2 x3 x4 = Cert.KernelIdeal.Glue.layer1 Cert.KernelIdeal.Glue.meanByQuot x0 x1 x2 x4 x3 := by
  funext i
  obtain ⟨r, q, rfl⟩ : ∃ (r : Fin 50000) (q : Fin 128), i = ix2 r q := ⟨i 0, i 1, eq_ix2 i⟩
  unfold val_main_v29 val_main_v28 val_main_v26 val_main_v23 val_main_v27 val_main_v25 val_main_v24 val_main_call0_v0 val_main_call0_cst
  rw [mean1_eq, maximumf_apply, addf_apply, addf_apply,
    LibBlocks.dotGeneral_plain_apply dot_S50000x128_S128x128_S50000x128_1_0_0_1_n_n rfl,
    LibBlocks.dotGeneral_plain_apply dot_S50000x128_S128x128_S50000x128_1_0_0_1_n_n rfl,
    bias128_apply, broadcastInDim_scalar_apply, constant_apply, Ideal.ofBits_zero_f32]
  rfl

/-- The result is the second layer of the specification, of the hidden features. -/
theorem layer2_eq (x0 : FVec Ideal S50000x128 .f32) (x1 : IVec S2x800000 32) (x2 : FVec Ideal S128x128 .f32)
    (x3 : FVec Ideal S128 .f32) (x4 : FVec Ideal S128x128 .f32) (x5 : FVec Ideal S128x64 .f32) (x6 : FVec Ideal S64 .f32)
    (x7 : FVec Ideal S128x64 .f32) :
    val_main_v54 (F := Ideal) x0 x1 x2 x3 x4 x5 x6 x7
      = Cert.KernelIdeal.Glue.layer2 Cert.KernelIdeal.Glue.meanByQuot (val_main_v29 (F := Ideal) x0 x1 x2 x3 x4) x1 x5 x7 x6 := by
  funext i
  obtain ⟨r, q, rfl⟩ : ∃ (r : Fin 50000) (q : Fin 64), i = ix2 r q := ⟨i 0, i 1, eq_ix2 i⟩
  unfold val_main_v54 val_main_v52 val_main_v49 val_main_v53 val_main_v51 val_main_v50
  rw [mean2_eq, addf_apply, addf_apply,
    LibBlocks.dotGeneral_plain_apply dot_S50000x128_S128x64_S50000x64_1_0_0_1_n_n rfl,
    LibBlocks.dotGeneral_plain_apply dot_S50000x128_S128x64_S50000x64_1_0_0_1_n_n rfl,
    bias64_apply]
  rfl

/-- The reference's result term is the two layers of its arguments, the mean taken as a quotient. -/
theorem result_eq (m : (ℓ : Loc nD τ sig) → Buf (Elt Ideal) ℓ) (c : Dev nD) :
    Cert.ReferenceIdeal.Value.res_main_v54 m c
      = Cert.KernelIdeal.Glue.twoLayers Cert.KernelIdeal.Glue.meanByQuot
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [val_main_v54_eq, layer2_eq, layer1_eq]
  rfl

end Cert.ReferenceIdeal.RefValue

end
-- ==== Proof.lean ====
/-
  Two stacked GraphSAGE layers: a program that runs the dense half of each layer as a row-blocked kernel
  region, against the plain array program.

  Both programs take node features x (50000 × 128), an edge list (2 × 800000 integers: sources, destinations)
  and, per layer, two weight matrices and a bias. A layer takes features h and computes, for every node, the
  mean of h over the node's in-neighbours — the sum of the gathered neighbour rows over max(in-degree, 1) —
  and then  mean · Wl + b + h · Wr ; the first layer is followed by a maximum with zero.

  On the extended reals the two programs compute the same function of their arguments:

  * the gathers, the scatter-adds and the degree count are the same operations of the same arguments in both;
  * one program multiplies the neighbours' sum by 1 / max(deg, 1), the other divides it by max(deg, 1): a quotient by
    a divisor that is not zero is the product with its inverse, and max(deg, 1) ≥ 1 (Glue.lean);
  * one program computes each layer's dense half 2000 rows at a time, narrowing the operands of its products to
    a shorter float format first (the identity on the extended reals), the other on whole arrays: a row of the
    result depends on the same row of the operands only, and a product read at (r, c) is the sum over j of
    left(r, j) · right(j, c) either way (KBody.lean, KRegion.lean, RValue.lean).

  No law used needs the inputs to be finite, so the precondition is not opened. The kernel program's run is read
  off its generated frame (KRun.lean, KValue.lean); the reference's run is its generated run. The idealization of the
  kernel program rewrote nothing, so there is nothing to preserve.
-/
import proofs.«181657_j3521873183303_1_alg».proof.Defs
import proofs.«181657_j3521873183303_1_alg».proof.Proof.Gen.Kernel
import proofs.«181657_j3521873183303_1_alg».proof.Proof.Gen.Kernel.Skeleton
import proofs.«181657_j3521873183303_1_alg».proof.Proof.Gen.Kernel.Launch
import proofs.«181657_j3521873183303_1_alg».proof.Proof.Gen.Kernel.Points
import proofs.«181657_j3521873183303_1_alg».proof.Proof.Gen.Kernel.Frame
import proofs.«181657_j3521873183303_1_alg».proof.Proof.Gen.KernelIdeal
import proofs.«181657_j3521873183303_1_alg».proof.Proof.Gen.KernelIdeal.Skeleton
import proofs.«181657_j3521873183303_1_alg».proof.Proof.Gen.KernelIdeal.Launch
import proofs.«181657_j3521873183303_1_alg».proof.Proof.Gen.KernelIdeal.Points
import proofs.«181657_j3521873183303_1_alg».proof.Proof.Gen.KernelIdeal.Frame
import proofs.«181657_j3521873183303_1_alg».proof.Proof.Gen.ReferenceIdeal
import proofs.«181657_j3521873183303_1_alg».proof.Proof.Gen.ReferenceIdeal.Run
import proofs.«181657_j3521873183303_1_alg».proof.Proof.Gen.ReferenceIdeal.Read
import proofs.«181657_j3521873183303_1_alg».proof.Proof.Gen.Pre_finite_inputs
import proofs.«181657_j3521873183303_1_alg».proof.Proof.KValue
import proofs.«181657_j3521873183303_1_alg».proof.Proof.RValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From memories agreeing on the arguments both programs end with the two layers of those arguments in their
    result buffers: one with the mean as a product with the reciprocal, the other as a quotient, which are equal. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Glue.twoLayers_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
